-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S512x64 : Shape := ⟨2, ![512, 64]⟩
abbrev S512 : Shape := ⟨1, ![512]⟩
abbrev S_ : Shape := ⟨0, ![]⟩

class Facts : Prop where
  bcast_S_S16x4096x64 : S_.BroadcastsInDim S16x4096x64 (![] : Fin 0 → Fin S16x4096x64.rank)
  reducesTo_S16x4096x64_S_d0_1_2 : S16x4096x64.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S16x4096x64 .f32) (main_arg1 : FVec F S512x64 .f32) (main_arg2 : FVec F S512 .f32) : IVec S_ 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_c : IVec S_ 1 := constantI S_ 1 1#1
  let main_v3 : IVec S_ 1 := (fun x v => Host.reduce IntOp.andi x v reducesTo_S16x4096x64_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S16x4096x64 : Shape := ⟨3, ![16, 4096, 64]⟩
abbrev S512x64 : Shape := ⟨2, ![512, 64]⟩
abbrev S512 : Shape := ⟨1, ![512]⟩
abbrev S65536x64 : Shape := ⟨2, ![65536, 64]⟩
abbrev S_ : Shape := ⟨0, ![]⟩
abbrev S512x1 : Shape := ⟨2, ![512, 1]⟩
abbrev S64x512 : Shape := ⟨2, ![64, 512]⟩
abbrev S1x512 : Shape := ⟨2, ![1, 512]⟩
abbrev S65536x512 : Shape := ⟨2, ![65536, 512]⟩
abbrev S4096x64 : Shape := ⟨2, ![4096, 64]⟩
abbrev S4096x512 : Shape := ⟨2, ![4096, 512]⟩
abbrev S4096 : Shape := ⟨1, ![4096]⟩
abbrev S4096x1 : Shape := ⟨2, ![4096, 1]⟩
abbrev S16x4096x512 : Shape := ⟨3, ![16, 4096, 512]⟩

abbrev nBuf : Space → Nat
  | .hbm => 19
  | .vmem => 7
  | .smem => 0
  | _ => 0

abbrev bufTy : (tb : Table) → Fin (tcTables nBuf tb) → BufTy
  | .hbm, ⟨0, _⟩ => ⟨S16x4096x64, .f32⟩
  | .hbm, ⟨1, _⟩ => ⟨S512x64, .f32⟩
  | .hbm, ⟨2, _⟩ => ⟨S512, .f32⟩
  | .hbm, ⟨3, _⟩ => ⟨S65536x64, .f32⟩
  | .hbm, ⟨4, _⟩ => ⟨S512x64, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x64, .f32⟩
  | .hbm, ⟨9, _⟩ => ⟨S512x64, .f32⟩
  | .hbm, ⟨10, _⟩ => ⟨S_, .f32⟩
  | .hbm, ⟨11, _⟩ => ⟨S512x64, .f32⟩
  | .hbm, ⟨12, _⟩ => ⟨S512x64, .f32⟩
  | .hbm, ⟨13, _⟩ => ⟨S64x512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S65536x512, .f32⟩
  | .hbm, ⟨18, _⟩ => ⟨S16x4096x512, .f32⟩
  | .local _ .vmem, ⟨0, _⟩ => ⟨S4096x64, .f32⟩
  | .local _ .vmem, ⟨1, _⟩ => ⟨S4096x64, .f32⟩
  | .local _ .vmem, ⟨2, _⟩ => ⟨S64x512, .f32⟩
  | .local _ .vmem, ⟨3, _⟩ => ⟨S1x512, .f32⟩
  | .local _ .vmem, ⟨4, _⟩ => ⟨S1x512, .f32⟩
  | .local _ .vmem, ⟨5, _⟩ => ⟨S4096x512, .f32⟩
  | .local _ .vmem, ⟨6, _⟩ => ⟨S4096x512, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x64_S65536x64 : S16x4096x64.ShapeCasts S65536x64
  reducesTo_S512x64_S512_d1 : S512x64.ReducesTo [1] S512
  h_S_ : 0 < S_.numel
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S_S512x64 : S_.BroadcastsInDim S512x64 (![] : Fin 0 → Fin S512x64.rank)
  transposes_S512x64_S64x512_1_0 : S512x64.Transposes [1, 0] S64x512
  shapeCasts_S512_S1x512 : S512.ShapeCasts S1x512
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  reduces_S4096x64_S4096 : S4096x64.Reduces [1] S4096
  shapeCasts_S4096_S4096x1 : S4096.ShapeCasts S4096x1
  broadcasts_S4096x1_S4096x512 : S4096x1.Broadcasts S4096x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  shapeCasts_S65536x512_S16x4096x512 : S65536x512.ShapeCasts S16x4096x512
  dot_S4096x64_S64x512_S4096x512_1_0_0_1_n_n_wf : DotDims.WF S4096x64 S64x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S65536x512.size a
  hwx0_4 : ∀ i : grid0.Coords, EltTy.bits .f32 = 32 ∨ (Rect.block (s := S65536x512) S4096x512.size (cc0_transform_4 i) (hinb0_4 i)).WholeWords (EltTy.packing .f32)

variable [Facts₀]

def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf

abbrev win0_0 : Pipeline.Window sig grid0 :=
  Pipeline.Window.ofSpec (Memref.whole main_v0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x64 : Shape := ⟨3, ![16, 4096, 64]⟩
abbrev S512x64 : Shape := ⟨2, ![512, 64]⟩
abbrev S512 : Shape := ⟨1, ![512]⟩
abbrev S_ : Shape := ⟨0, ![]⟩
abbrev S16x4096 : Shape := ⟨2, ![16, 4096]⟩
abbrev S16x4096x1 : Shape := ⟨3, ![16, 4096, 1]⟩
abbrev S16x4096x512 : Shape := ⟨3, ![16, 4096, 512]⟩
abbrev S1x1x512 : Shape := ⟨3, ![1, 1, 512]⟩

abbrev nBuf : Space → Nat
  | .hbm => 22
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S512x64, .f32⟩
  | .hbm, ⟨2, _⟩ => ⟨S512, .f32⟩
  | .hbm, ⟨3, _⟩ => ⟨S16x4096x64, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S512x64, .f32⟩
  | .hbm, ⟨8, _⟩ => ⟨S_, .f32⟩
  | .hbm, ⟨9, _⟩ => ⟨S512, .f32⟩
  | .hbm, ⟨10, _⟩ => ⟨S16x4096x512, .f32⟩
  | .hbm, ⟨11, _⟩ => ⟨S_, .f32⟩
  | .hbm, ⟨12, _⟩ => ⟨S16x4096x512, .f32⟩
  | .hbm, ⟨13, _⟩ => ⟨S16x4096x512, .f32⟩
  | .hbm, ⟨14, _⟩ => ⟨S16x4096x512, .f32⟩
  | .hbm, ⟨15, _⟩ => ⟨S16x4096x512, .f32⟩
  | .hbm, ⟨16, _⟩ => ⟨S1x1x512, .f32⟩
  | .hbm, ⟨17, _⟩ => ⟨S16x4096x512, .f32⟩
  | .hbm, ⟨18, _⟩ => ⟨S16x4096x512, .f32⟩
  | .hbm, ⟨19, _⟩ => ⟨S1x1x512, .f32⟩
  | .hbm, ⟨20, _⟩ => ⟨S16x4096x512, .f32⟩
  | .hbm, ⟨21, _⟩ => ⟨S16x4096x512, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16x4096x64_S16x4096_d2 : S16x4096x64.ReducesTo [2] S16x4096
  h_S_ : 0 < S_.numel
  bcast_S16x4096_S16x4096x1_0_1 : S16x4096.BroadcastsInDim S16x4096x1 (![0, 1] : Fin 2 → Fin S16x4096x1.rank)
  reducesTo_S512x64_S512_d1 : S512x64.ReducesTo [1] S512
  bcast_S_S16x4096x512 : S_.BroadcastsInDim S16x4096x512 (![] : Fin 0 → Fin S16x4096x512.rank)
  bcast_S16x4096x1_S16x4096x512_0_1_2 : S16x4096x1.BroadcastsInDim S16x4096x512 (![0, 1, 2] : Fin 3 → Fin S16x4096x512.rank)
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  dot_S16x4096x64_S512x64_S16x4096x512_2_1_01_0_n_n_wf : DotDims.WF S16x4096x64 S512x64 S16x4096x512 [2] [1] [0, 1] [0] [] []

variable [Facts₀]

def dot_S16x4096x64_S512x64_S16x4096x512_2_1_01_0_n_n : DotDims S16x4096x64 S512x64 S16x4096x512 where
  lhsContracting := [2]
  rhsContracting := [1]
  lhsNonContracting := [0, 1]
  rhsNonContracting := [0]
  lhsBatch := []
  rhsBatch := []
  wf := dot_S16x4096x64_S512x64_S16x4096x512_2_1_01_0_n_n_wf

class Facts : Prop extends Facts₀ where

variable [Facts]
-- ==== Proof.FiniteInputs.lean ====
/-
  What the precondition says: every entry of the three inputs is a real number.

  The precondition is the conjunction of three tests, one per input: "all entries have absolute value below +∞".
  On the extended reals `max x (−x) < +∞` excludes exactly the two infinities, so each entry is (the image of) a real
  number — which is what the distributive law between the two programs' arrangements needs.
-/
import proofs.«163286_j69114613728512_2_alg».proof.Pre_finite_inputs
import proofs.«163286_j69114613728512_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.FiniteInputs

open Cert.Pre_finite_inputs Idealize.ShloMosaic

instance : Subsingleton S_.Idx := ⟨fun _ _ => funext fun d => d.elim0⟩

/-- An extended real whose absolute value is below the word of +∞ is a real number. -/
theorem real_of_abs_lt_inf (x : EReal) (e : Ideal.cmp .olt (max x (-x)) (Ideal.ofBits .f32 0x7F800000#32) = 1#1) :
    ∃ r : ℝ, x = r := by
  have hinf : Ideal.ofBits .f32 0x7F800000#32 = ⊤ := by simp [Ideal.ofBits, Ideal.ieee]
  rw [hinf] at e
  induction x using EReal.rec with
  | bot => simp [Ideal.cmp] at e
  | coe r => exact ⟨r, rfl⟩
  | top => simp [Ideal.cmp] at e

/-- One input's test, at one entry. -/
theorem real_of_test {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) :
    ∃ r : ℝ, x i = r :=
  real_of_abs_lt_inf (x i) e

/-- The precondition, decoded. -/
theorem reals_of_pre (X : FVec Ideal S16x4096x64 .f32) (C : FVec Ideal S512x64 .f32) (S : FVec Ideal S512 .f32)
    (h : fn (F := Ideal) X C S = fun _ => 1#1) :
    (∀ i, ∃ r : ℝ, X i = r) ∧ (∀ i, ∃ r : ℝ, C i = r) ∧ (∀ i, ∃ r : ℝ, S i = r) := by
  have h0 := congrFun h ValueIdx.ix0
  dsimp only [fn] at h0
  obtain ⟨h12, h3⟩ := IntOp.andi_eq_one.mp h0
  obtain ⟨h1, h2⟩ := IntOp.andi_eq_one.mp h12
  exact ⟨fun i => real_of_test X Facts.bcast_S_S16x4096x64 i (Host.reduce_andi_all _ _ _ _ ValueIdx.ix0 h1 i),
    fun i => real_of_test C Facts.bcast_S_S512x64 i (Host.reduce_andi_all _ _ _ _ ValueIdx.ix0 h2 i),
    fun i => real_of_test S Facts.bcast_S_S512 i (Host.reduce_andi_all _ _ _ _ ValueIdx.ix0 h3 i)⟩

end Cert.FiniteInputs

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.LibRowFolds.lean ====
/-
  Reductions along the LAST axis read at an index written by coordinates, at the exact (extended-real) values.

  On the device, a `vector.multi_reduction` over axis 1 of an `[a, b]` array read at `n`: with an add body from the
  neutral accumulator it is `Σ_k src (n, k)`; with a maximum body it is `max` folded over `k` from the accumulator's
  value. On the host, a `stablehlo.reduce` with a maximum body over axis 2 of an `[m, a, b]` array read at `(e, n)` is
  `max` folded over `k` of the operand at `(e, n, k)`, from the initial value. And the word of −∞ is neutral for `max`.
  General: nothing here mentions a program.
-/
import Idealize.ShloMosaic.PureOps.Ideal.Laws
import Idealize.ShloMosaic.Lib.ValueIdx

noncomputable section

namespace Cert.LibRowFolds

open Idealize.ShloMosaic Idealize.ShloMosaic.ValueIdx

/-- Inserting coordinate `k` on axis 1 into the reduced index `n` gives `(n, k)`. -/
theorem lift_row {a b : ℕ} (h : (⟨2, ![a, b]⟩ : Shape).Reduces [1] ⟨1, ![a]⟩) (n : Fin a) (k : Fin b) :
    h.lift (ix1 n) k = ix2 n k := by
  funext ax; apply Fin.ext
  match ax with
  | ⟨0, _⟩ => rfl
  | ⟨1, _⟩ => rfl

/-- A device sum over axis 1 of `[a, b]` from the neutral accumulator, at `n`, is `Σ_k src (n, k)`. -/
theorem rowSum_at {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (n : Fin a) :
    multiReduction .add [1] ⟨1, ![a]⟩ src acc h hφ hacc (ix1 n) = ∑ k : Fin b, src (ix2 n k) := by
  refine (Ideal.multiReduction_add_single src acc h hφ hacc (ix1 n)).trans ?_
  exact Finset.sum_congr rfl fun k _ => congrArg src (lift_row h n k)

/-- A device maximum over axis 1 of `[a, b]`, at `n`, is `max` folded over `k` from the accumulator's value. -/
theorem rowMax_at {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  exact congrArg (fun f => Finset.fold max (Ideal.ofBits .f32 acc) f (Finset.univ : Finset (Fin b)))
    (funext fun k => congrArg src (lift_row h n k))

/-- Inserting coordinate `k` on axis 2 into the reduced index `(e, n)` gives `(e, n, k)`. -/
theorem lift_last3 {m a b : ℕ} (h : (⟨3, ![m, a, b]⟩ : Shape).Reduces [2] ⟨2, ![m, a]⟩) (e : Fin m) (n : Fin a)
    (k : Fin b) : h.lift (ix2 e n) k = ix3 e n k := by
  funext ax; apply Fin.ext
  match ax with
  | ⟨0, _⟩ => rfl
  | ⟨1, _⟩ => rfl
  | ⟨2, _⟩ => rfl

/-- A host maximum over axis 2 of `[m, a, b]`, at `(e, n)`, is `max` folded over `k` from the initial value. -/
theorem hostMax_last3_at {m a b : ℕ} {u : Shape} (x : FVec Ideal ⟨3, ![m, a, b]⟩ .f32) (init : u.Idx → Ideal .f32)
    (h' : (⟨3, ![m, a, b]⟩ : Shape).ReducesTo [2] ⟨2, ![m, a]⟩) (h : (⟨3, ![m, a, b]⟩ : Shape).Reduces [2] ⟨2, ![m, a]⟩)
    (hu : 0 < u.numel) (e : Fin m) (n : Fin a) :
    Host.reduce FloatOps.maximumf x init h' hu (ix2 e n)
      = (Finset.univ : Finset (Fin b)).fold max (init (Shape.Idx.first hu)) (fun k => x (ix3 e n k)) := by
  refine (Host.reduce_eq_fold_single FloatOps.maximumf x init h' h hu (ix2 e n)).trans ?_
  exact congrArg (fun f => Finset.fold max (init (Shape.Idx.first hu)) f (Finset.univ : Finset (Fin b)))
    (funext fun k => congrArg x (lift_last3 h e n k))

/-- The value of the word of −∞ is the least extended real, so it is neutral for `max`. -/
theorem max_negInf (y : EReal) : max (Ideal.ofBits .f32 0xFF800000#32) y = y := by
  simp [Ideal.ofBits, Ideal.ieee]

end Cert.LibRowFolds

end
-- ==== Proof.KernelBody.lean ====
/-
  What the kernel's body stores, at one index of its output block.

  The body holds a block of 4096 rows of `x` (64 features each), the folded codebook table `T` (64 × 512), and two
  rows of 512 numbers, `sv` and `sc`. At `(p, q)` it stores
  `((Σ_d x[p,d]²) · sv[0,q] + Σ_d x[p,d] · T[d,q]) + sc[0,q]`:
  the row's squared norm is summed along the feature axis, kept as a column and spread over the 512 columns; the two
  rows are spread over the 4096 rows; the matrix product, into a zero accumulator, is the sum over the contracted
  feature axis (the narrowing of its operands to a shorter float format does nothing to exact values).
-/
import proofs.«163286_j69114613728512_2_alg».proof.Proof.Gen.KernelIdeal.Skeleton
import proofs.«163286_j69114613728512_2_alg».proof.Proof.LibKeepdims
import proofs.«163286_j69114613728512_2_alg».proof.Proof.LibPlainMatmul
import proofs.«163286_j69114613728512_2_alg».proof.Proof.LibRowFolds
import Idealize.ShloMosaic.Lib.ValueLayout
import Idealize.ShloMosaic.Lib.Pipeline.Value

noncomputable section

namespace Cert.KernelBody

open Cert.KernelIdeal Cert.KernelIdeal.Gen Idealize.ShloMosaic Idealize.ShloMosaic.ValueIdx

/-! ## Where the product's dimension numbers send an output index and a contraction index -/

theorem lhs0 (i : S4096x512.Idx) (r : dot_S4096x64_S64x512_S4096x512_1_0_0_1_n_n.contr.Idx) : (dot_S4096x64_S64x512_S4096x512_1_0_0_1_n_n.lhsIdx i r 0).val = (i 0).val := by
  unfold DotDims.lhsIdx
  rw [dif_neg (show ¬(0 : Fin S4096x64.rank) ∈ dot_S4096x64_S64x512_S4096x512_1_0_0_1_n_n.lhsBatch by decide),
    dif_pos (show (0 : Fin S4096x64.rank) ∈ dot_S4096x64_S64x512_S4096x512_1_0_0_1_n_n.lhsNonContracting by decide)]
  rfl
theorem lhs1 (i : S4096x512.Idx) (r : dot_S4096x64_S64x512_S4096x512_1_0_0_1_n_n.contr.Idx) : (dot_S4096x64_S64x512_S4096x512_1_0_0_1_n_n.lhsIdx i r 1).val = (r ⟨0, by decide⟩).val :=
  dot_S4096x64_S64x512_S4096x512_1_0_0_1_n_n.lhsIdx_val_of_single rfl i r
theorem rhs0 (i : S4096x512.Idx) (r : dot_S4096x64_S64x512_S4096x512_1_0_0_1_n_n.contr.Idx) : (dot_S4096x64_S64x512_S4096x512_1_0_0_1_n_n.rhsIdx i r 0).val = (r ⟨0, by decide⟩).val :=
  dot_S4096x64_S64x512_S4096x512_1_0_0_1_n_n.rhsIdx_val_of_single rfl i r
theorem rhs1 (i : S4096x512.Idx) (r : dot_S4096x64_S64x512_S4096x512_1_0_0_1_n_n.contr.Idx) : (dot_S4096x64_S64x512_S4096x512_1_0_0_1_n_n.rhsIdx i r 1).val = (i 1).val := by
  unfold DotDims.rhsIdx
  rw [dif_neg (show ¬(1 : Fin S64x512.rank) ∈ dot_S4096x64_S64x512_S4096x512_1_0_0_1_n_n.rhsBatch by decide),
    dif_pos (show (1 : Fin S64x512.rank) ∈ dot_S4096x64_S64x512_S4096x512_1_0_0_1_n_n.rhsNonContracting by decide)]
  rfl

/-! ## The three non-pointwise pieces, each at `(p, q)` -/

/-- The row's squared norm, kept as a column and spread over the columns. -/
theorem sqnorm_at (x0 : FVec Ideal S4096x64 .f32) (p : Fin 4096) (q : Fin 512) :
    broadcastTo S4096x512 (shapeCast S4096x1 (multiReduction (F := Ideal) .add [1] S4096 (mulf x0 x0) 0x00000000#32
        reduces_S4096x64_S4096 (.inl rfl) rfl) shapeCasts_S4096_S4096x1) broadcasts_S4096x1_S4096x512 (ix2 p q)
      = ∑ d : Fin 64, x0 (ix2 p d) * x0 (ix2 p d) :=
  (Cert.Keepdims.broadcastTo_a1_ab_apply _ broadcasts_S4096x1_S4096x512 p q).trans
    ((Cert.Keepdims.shapeCast_a_a1_apply _ shapeCasts_S4096_S4096x1 p (0 : Fin 1)).trans
      (Cert.LibRowFolds.rowSum_at (mulf x0 x0) 0x00000000#32 reduces_S4096x64_S4096 (.inl rfl) rfl p))

/-- A row of 512 numbers spread over the 4096 rows. -/
theorem row_at (v : FVec Ideal S1x512 .f32) (p : Fin 4096) (q : Fin 512) :
    broadcastTo S4096x512 v broadcasts_S1x512_S4096x512 (ix2 p q) = v (ix2 (0 : Fin 1) q) :=
  broadcastTo_1b_ab_apply v broadcasts_S1x512_S4096x512 p q

/-- The matrix product into the zero accumulator. -/
theorem product_at (x0 : FVec Ideal S4096x64 .f32) (x1 : FVec Ideal S64x512 .f32) (p : Fin 4096) (q : Fin 512) :
    matmul (F := Ideal) dot_S4096x64_S64x512_S4096x512_1_0_0_1_n_n none (truncf .bf16 x0 bitsLt_bf16_f32) (truncf .bf16 x1 bitsLt_bf16_f32)
        (constant S4096x512 .f32 0x00000000#32) (ix2 p q)
      = ∑ d : Fin 64, x0 (ix2 p d) * x1 (ix2 d q) :=
  Cert.LibPlainMatmul.matmul_zero_at dot_S4096x64_S64x512_S4096x512_1_0_0_1_n_n none rfl rfl lhs0 lhs1 rhs0 rhs1
    (truncf .bf16 x0 bitsLt_bf16_f32) (truncf .bf16 x1 bitsLt_bf16_f32) p q

/-! ## The stored value -/

/-- The body's stored value at `(p, q)`. -/
theorem payload_at (x0 : FVec Ideal S4096x64 .f32) (x1 : FVec Ideal S64x512 .f32) (x2 x3 : FVec Ideal S1x512 .f32)
    (p : Fin 4096) (q : Fin 512) :
    k0_pay1 (F := Ideal) x0 x1 x2 x3 (ix2 p q)
      = ((∑ d : Fin 64, x0 (ix2 p d) * x0 (ix2 p d)) * x2 (ix2 (0 : Fin 1) q) + ∑ d : Fin 64, x0 (ix2 p d) * x1 (ix2 d q))
          + x3 (ix2 (0 : Fin 1) q) := by
  unfold k0_pay1
  simp only [shapeCast_self]
  exact congrArg₂ (· + ·)
    (congrArg₂ (· + ·) (congrArg₂ (· * ·) (sqnorm_at x0 p q) (row_at x2 p q)) (product_at x0 x1 p q))
    (row_at x3 p q)

end Cert.KernelBody

end
-- ==== Proof.KernelArray.lean ====
/-
  The kernel's output array after the run, as one function of the four arrays it was launched on.

  The grid has 16 points; point `t` works on rows `4096·t … 4096·t + 4095` of the flattened input and writes the
  same rows of the output, while the table and the two rows are the same whole arrays at every point. So entry
  `(r, q)` of the output is `((Σ_d x[r,d]²) · sv[0,q] + Σ_d x[r,d] · T[d,q]) + sc[0,q]` — the body's stored value
  with each block read where its rectangle lies — and the 16 row blocks tile the output, so the whole array is that
  function.
-/
import proofs.«163286_j69114613728512_2_alg».proof.Proof.Gen.KernelIdeal.Frame
import proofs.«163286_j69114613728512_2_alg».proof.Proof.KernelBody
import Idealize.ShloMosaic.Lib.Pipeline.Value
import Idealize.ShloMosaic.PureOps.Ideal

noncomputable section

namespace Cert.KernelArray

open Cert.KernelIdeal Cert.KernelIdeal.Gen Idealize.ShloMosaic Idealize.ShloMosaic.TcCoe Idealize.SL.Sem
open Idealize.ShloMosaic.ValueIdx
open Idealize.ShloMosaic.Pipeline (Dat)

/-! ## The output as a function of the launched arrays -/

/-- Entry `(r, q)` of the output. -/
def entry (X0 : S65536x64.Idx → EReal) (T : S64x512.Idx → EReal) (sv sc : S1x512.Idx → EReal) (r : Fin 65536) (q : Fin 512) : EReal :=
  ((∑ d : Fin 64, X0 (ix2 r d) * X0 (ix2 r d)) * sv (ix2 (0 : Fin 1) q) + ∑ d : Fin 64, X0 (ix2 r d) * T (ix2 d q))
    + sc (ix2 (0 : Fin 1) q)

/-- The whole output array. -/
def whole (X0 : S65536x64.Idx → EReal) (T : S64x512.Idx → EReal) (sv sc : S1x512.Idx → EReal) : S65536x512.Idx → EReal :=
  fun i => entry X0 T sv sc ⟨(i 0).val, (i 0).isLt⟩ ⟨(i 1).val, (i 1).isLt⟩

theorem whole_at (X0 : S65536x64.Idx → EReal) (T : S64x512.Idx → EReal) (sv sc : S1x512.Idx → EReal)
    (i : S65536x512.Idx) (r : Fin 65536) (q : Fin 512) (h0 : (i 0).val = r.val) (h1 : (i 1).val = q.val) :
    whole X0 T sv sc i = entry X0 T sv sc r q :=
  congrArg₂ (entry X0 T sv sc) (Fin.ext h0) (Fin.ext h1)

/-- The body's stored value at `(p, q)` of a block is entry `(r, q)`, once each loaded block agrees with its array
    where the entry reads it. -/
theorem block_entry (X0 : S65536x64.Idx → EReal) (T : S64x512.Idx → EReal) (sv sc : S1x512.Idx → EReal)
    (x0 : FVec Ideal S4096x64 .f32) (x1 : FVec Ideal S64x512 .f32) (x2 x3 : FVec Ideal S1x512 .f32)
    (p : Fin 4096) (q : Fin 512) (r : Fin 65536)
    (h0 : ∀ d : Fin 64, x0 (ix2 p d) = X0 (ix2 r d)) (h1 : ∀ d : Fin 64, x1 (ix2 d q) = T (ix2 d q))
    (h2 : x2 (ix2 (0 : Fin 1) q) = sv (ix2 (0 : Fin 1) q)) (h3 : x3 (ix2 (0 : Fin 1) q) = sc (ix2 (0 : Fin 1) q)) :
    k0_pay1 (F := Ideal) x0 x1 x2 x3 (ix2 p q) = entry X0 T sv sc r q := by
  rw [Cert.KernelBody.payload_at]
  unfold entry
  simp only [h0, h1, h2, h3]

/-! ## The windows' blocks on the grid -/

theorem hz : (![0, 0] : Fin 2 → Nat) = fun _ => 0 := funext fun a => by fin_cases a <;> rfl

/-- The printed index maps, decided over the 16 points: the input rows and the output rows move with the point, the
    table and the two rows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (m : (ℓ : Loc nD τ sig) → Buf (Elt Ideal) ℓ) (c : Dev nD)

/-- WHAT POINT `t` WRITES BACK is block `t` of the whole output. -/
theorem flushed_eq (t : Fin cfg0.N) :
    (dats m 0 c).flushed 4 t
      = ((cfg0.win 4).blk t).view.read (Elt Ideal) (whole (V m c main_v0) (V m c main_v8) (V m c main_v9) (V m c main_v11)) := by
  show (cfg0.win 4).cut (grid0.coords t) ((dats m 0 c).after 4 t) = _
  rw [after0_4]
  unfold out0_4
  rw [View.canon_unit_zero hz]
  simp only [View.ld_unit_zero (S := S4096x64) hz, View.ld_unit_zero (S := S64x512) hz, View.ld_unit_zero (S := S1x512) hz]
  obtain ⟨e00, e01, e10, e11, e20, e21, e30, e31, e40, e41⟩ := idx_facts t
  have ht : t.val < 16 := lt_of_lt_of_eq t.isLt N_0
  funext j
  obtain ⟨p, q, rfl⟩ : ∃ (p : Fin 4096) (q : Fin 512), j = ix2 p q := ⟨j 0, j 1, eq_ix2 j⟩
  have hp := p.isLt
  show k0_pay1 (F := Ideal) (iblk m c 0 t) (iblk m c 1 t) (iblk m c 2 t) (iblk m c 3 t) (ix2 p q)
    = whole (V m c main_v0) (V m c main_v8) (V m c main_v9) (V m c main_v11) (((cfg0.win 4).blk t).view.emb (ix2 p q))
  refine (block_entry (V m c main_v0) (V m c main_v8) (V m c main_v9) (V m c main_v11)
    (iblk m c 0 t) (iblk m c 1 t) (iblk m c 2 t) (iblk m c 3 t) p q ⟨t.val * 4096 + p.val, by omega⟩ ?_ ?_ ?_ ?_).trans
    (whole_at (V m c main_v0) (V m c main_v8) (V m c main_v9) (V m c main_v11) _ ⟨t.val * 4096 + p.val, by omega⟩ q ?_ ?_).symm
  · intro d
    show V m c main_v0 (((cfg0.win 0).blk t).view.emb (ix2 p d)) = V m c main_v0 (ix2 ⟨t.val * 4096 + p.val, by omega⟩ d)
    refine congrArg (V m c main_v0) (funext fun a => Fin.ext ?_)
    match a with
    | ⟨0, _⟩ => show win0_0.index t (0 : Fin 2) * 4096 + 1 * p.val = t.val * 4096 + p.val; omega
    | ⟨1, _⟩ => show win0_0.index t (1 : Fin 2) * 64 + 1 * d.val = d.val; omega
  · intro d
    show V m c main_v8 (((cfg0.win 1).blk t).view.emb (ix2 d q)) = V m c main_v8 (ix2 d q)
    refine congrArg (V m c main_v8) (funext fun a => Fin.ext ?_)
    match a with
    | ⟨0, _⟩ => show win0_1.index t (0 : Fin 2) * 64 + 1 * d.val = d.val; omega
    | ⟨1, _⟩ => show win0_1.index t (1 : Fin 2) * 512 + 1 * q.val = q.val; omega
  · show V m c main_v9 (((cfg0.win 2).blk t).view.emb (ix2 (0 : Fin 1) q)) = V m c main_v9 (ix2 (0 : Fin 1) q)
    refine congrArg (V m c main_v9) (funext fun a => Fin.ext ?_)
    match a with
    | ⟨0, _⟩ => show win0_2.index t (0 : Fin 2) * 1 + 1 * 0 = 0; omega
    | ⟨1, _⟩ => show win0_2.index t (1 : Fin 2) * 512 + 1 * q.val = q.val; omega
  · show V m c main_v11 (((cfg0.win 3).blk t).view.emb (ix2 (0 : Fin 1) q)) = V m c main_v11 (ix2 (0 : Fin 1) q)
    refine congrArg (V m c main_v11) (funext fun a => Fin.ext ?_)
    match a with
    | ⟨0, _⟩ => show win0_3.index t (0 : Fin 2) * 1 + 1 * 0 = 0; omega
    | ⟨1, _⟩ => show win0_3.index t (1 : Fin 2) * 512 + 1 * q.val = q.val; omega
  · show win0_4.index t (0 : Fin 2) * 4096 + 1 * p.val = t.val * 4096 + p.val; omega
  · show win0_4.index t (1 : Fin 2) * 512 + 1 * q.val = q.val; omega

/-- An index of the output is in point `t`'s block iff each coordinate is in the block's range on its axis. -/
theorem mem_blk (t : Fin cfg0.N) (i : S65536x512.Idx) :
    i ∈ ((cfg0.win 4).blk t).view.set ↔ ∀ a : Fin 2, win0_4.index t a * S4096x512.size a ≤ (i a).val
      ∧ (i a).val < win0_4.index t a * S4096x512.size a + S4096x512.size a := by
  show i ∈ ((View.whole main_v12).slice (win0_4.rect t)).set ↔ _
  rw [View.set_slice_whole, Rect.mem_set_unit]
  exact Iff.rfl

/-- The 16 row blocks tile the output: row `r` is in the block of point `r / 4096`. -/
theorem cover (i : S65536x512.Idx) : ∃ t : Fin cfg0.N, (cfg0.win 4).flush t = true ∧ i ∈ ((cfg0.win 4).blk t).view.set := by
  have hi0 : (i 0).val < 65536 := (i 0).isLt
  have hi1 : (i 1).val < 512 := (i 1).isLt
  have hlt : (i 0).val / 4096 < cfg0.N := lt_of_lt_of_eq (by omega : (i 0).val / 4096 < 16) N_0.symm
  obtain ⟨-, -, -, -, -, -, -, -, e40, e41⟩ := idx_facts ⟨(i 0).val / 4096, hlt⟩
  refine ⟨⟨(i 0).val / 4096, hlt⟩, flush0_4 _, ?_⟩
  rw [mem_blk]
  intro a
  match a with
  | ⟨0, _⟩ =>
    show win0_4.index ⟨(i 0).val / 4096, hlt⟩ (0 : Fin 2) * 4096 ≤ (i 0).val
      ∧ (i 0).val < win0_4.index ⟨(i 0).val / 4096, hlt⟩ (0 : Fin 2) * 4096 + 4096
    have e : win0_4.index ⟨(i 0).val / 4096, hlt⟩ (0 : Fin 2) = (i 0).val / 4096 := e40
    omega
  | ⟨1, _⟩ =>
    show win0_4.index ⟨(i 0).val / 4096, hlt⟩ (1 : Fin 2) * 512 ≤ (i 1).val
      ∧ (i 1).val < win0_4.index ⟨(i 0).val / 4096, hlt⟩ (1 : Fin 2) * 512 + 512
    omega

/-- THE OUTPUT ARRAY after the run. -/
theorem final : (dats m 0 c).arrAt 4 cfg0.N = whole (V m c main_v0) (V m c main_v8) (V m c main_v9) (V m c main_v11) :=
  (dats m 0 c).arrAt_eq_of_cover 4 _ (fun t _ => flushed_eq m c t) cover

end Cert.KernelArray

end
-- ==== Proof.KernelRun.lean ====
/-
  The kernel's run, with its result named.

  After the region the host only regroups the 65536 output rows as 16 × 4096. So the program's result is that
  regrouping of the output array, and the output array is the function of the launched arrays found before; the three
  arguments end as they were launched.
-/
import proofs.«163286_j69114613728512_2_alg».proof.Proof.Gen.KernelIdeal.Frame
import proofs.«163286_j69114613728512_2_alg».proof.Proof.KernelArray
import Idealize.ShloMosaic.Lib.StableHlo.Run
import Idealize.ShloMosaic.PureOps.Ideal

noncomputable section

namespace Cert.KernelRun

open Cert.KernelIdeal Cert.KernelIdeal.Gen Idealize.ShloMosaic Idealize.ShloMosaic.TcCoe Idealize.SL.Sem
open Idealize.ShloMosaic.StableHlo
open Cert.KernelArray (whole final)

variable (m : (ℓ : Loc nD τ sig) → Buf (Elt Ideal) ℓ) (ρ : Dev nD → PrngReg)

/-- The program's result on core `c`: the output array regrouped as 16 × 4096 × 512. -/
abbrev result (c : Dev nD) : S16x4096x512.Idx → EReal :=
  shapeCast S16x4096x512 (whole (V m c main_v0) (V m c main_v8) (V m c main_v9) (V m c main_v11))
    shapeCasts_S65536x512_S16x4096x512

/-- The host line after the region, applied to what the region leaves. -/
theorem result_eq (c : Dev nD) :
    (Pipeline.afterTail₀ cfgs (dats m) 0 (V0 m) [hostOps1] c main_v13 : S16x4096x512.Idx → EReal) = result m c := by
  unfold Pipeline.afterTail₀
  show StableHlo.after hostOps1 _ (Proc.devRef .tc main_v13) = _
  after_results
  funext i
  exact congrArg (fun A : S65536x512.Idx → EReal => shapeCast S16x4096x512 A shapeCasts_S65536x512_S16x4096x512 i)
    ((Pipeline.withArrays_arr spec0 launch0.win.arr_inj c _ _ 4).trans (final m c))

/-- Every weakly fair execution terminates with the result at `result` and the arguments unchanged. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelRun

end
-- ==== Proof.LibColumnBroadcast.lean ====
/-
  Column forms of `broadcast_in_dim` and of a column slice, read at coordinates. A vector `[a]` made a column `[a, 1]`
  (dims = [0]) reads, at `(i, u)`, the vector at `i`; a column `[a, 1]` spread over `b` columns (dims = [0, 1]) reads,
  at `(i, q)`, the column at `(i, 0)`; a scalar spread over any shape reads the scalar; and column `j` of an `[a, b]`
  array, cut out as `[a, 1]`, reads at `(i, u)` the array at `(i, j)`. General: nothing here mentions a program.
-/
import Idealize.ShloMosaic.Lib.Pipeline.Value
import Idealize.ShloMosaic.Lib.ValueIdx
import Idealize.ShloMosaic.Lib.ValueLayout

namespace Cert.LibColumnBroadcast

open Idealize.ShloMosaic Idealize.ShloMosaic.ValueIdx

variable {α : Type}

/-- A vector made a column: `[a] → [a, 1]` along axis 0 reads, at `(i, u)`, the vector at `i`. -/
theorem vector_as_column_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x _ _ (fun d => by
    match d with
    | ⟨0, _⟩ =>
      show i.val = if a = 1 then 0 else i.val
      split
      · have := i.isLt; omega
      · rfl)

/-- A column spread over `b` columns: `[a, 1] → [a, b]` along axes 0, 1 reads, at `(i, q)`, the column at `(i, 0)`. -/
theorem column_spread_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (q : Fin b) :
    broadcastInDim ⟨2, ![a, b]⟩ (![0, 1] : Fin 2 → Fin 2) h x (ix2 i q) = x (ix2 i (0 : Fin 1)) :=
  broadcastInDim_apply _ h x _ _ (fun d => by
    match d with
    | ⟨0, _⟩ =>
      show i.val = if a = 1 then 0 else i.val
      split
      · have := i.isLt; omega
      · rfl
    | ⟨1, _⟩ =>
      show (0 : ℕ) = if (1 : ℕ) = 1 then 0 else q.val
      rw [if_pos rfl])

/-- A scalar spread over any shape reads the scalar. -/
theorem scalar_spread_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x j ix0 (fun d => d.elim0)

/-- Column `j` of an `[a, b]` array, cut out as an `[a, 1]` column, reads at `(i, u)` the array at `(i, j)`. -/
theorem column_cut_apply {a b : ℕ} (j : ℕ) (x : (⟨2, ![a, b]⟩ : Shape).Idx → α)
    (h : (⟨2, ![a, b]⟩ : Shape).Slices ![0, j] ⟨2, ![a, 1]⟩) (i : Fin a) (u : Fin 1) (k : Fin b) (hk : k.val = j) :
    extractStridedSlice ⟨2, ![a, 1]⟩ ![0, j] x h (ix2 i u) = x (ix2 i k) :=
  slice2_axis1_apply j x h i u k (by have := u.isLt; omega)

end Cert.LibColumnBroadcast
-- ==== Proof.LibReshapeAxes.lean ====
/-
  Three reshapes that regroup axes without moving any element, each read at an index written by coordinates.

  Row-major position is what a reshape preserves. Splitting the middle axis of `[A, C, P]` with `C = B * K` into
  `[A, B, K, P]` sends `(a, b * K + k, p)` to `(a, b, k, p)`; merging the two leading axes of `[A, B, N]` into
  `[A * B, N]` sends `(a, b, n)` to `(a * B + b, n)`, and splitting them again is the inverse. In each case the two
  positions are the same polynomial in the coordinates. General: nothing here mentions a program.
-/
import Idealize.ShloMosaic.Lib.Pipeline.Value
import Idealize.ShloMosaic.Lib.ValueIdx

noncomputable section

namespace Cert.LibReshapeAxes

open Idealize.ShloMosaic Idealize.ShloMosaic.ValueIdx

/-- The middle coordinate `b * K + k` of the unsplit axis. -/
abbrev mid {B K C : ℕ} (hC : C = B * K) (b : Fin B) (k : Fin K) : Fin C :=
  ⟨b.val * K + k.val, by
    subst hC
    have hb := b.isLt; have hk := k.isLt
    calc b.val * K + k.val < b.val * K + K := by omega
      _ = (b.val + 1) * K := by ring
      _ ≤ B * K := Nat.mul_le_mul_right K hb⟩

/-- `[A, C, P] → [A, B, K, P]` with `C = B * K`, at `(a, b, k, p)`, is the operand at `(a, b * K + k, p)`. -/
theorem split_middle_at {α : Type} {A C B K P : ℕ} (x : (⟨3, ![A, C, P]⟩ : Shape).Idx → α)
    (h : (⟨3, ![A, C, P]⟩ : Shape).ShapeCasts ⟨4, ![A, B, K, P]⟩) (hC : C = B * K)
    (a : Fin A) (b : Fin B) (k : Fin K) (p : Fin P) :
    shapeCast ⟨4, ![A, B, K, P]⟩ x h (ix4 a b k p) = x (ix3 a (mid hC b k) p) := by
  refine shapeCast_apply x h _ _ ?_
  rewrite [Shape.rowMajor_val_three, Shape.rowMajor_val_four]
  show (a.val * C + (b.val * K + k.val)) * P + p.val = ((a.val * B + b.val) * K + k.val) * P + p.val
  subst hC; ring

/-- The merged leading coordinate `a * B + b`. -/
abbrev lead {A B M : ℕ} (hM : M = A * B) (a : Fin A) (b : Fin B) : Fin M :=
  ⟨a.val * B + b.val, by
    subst hM
    have ha := a.isLt; have hb := b.isLt
    calc a.val * B + b.val < a.val * B + B := by omega
      _ = (a.val + 1) * B := by ring
      _ ≤ A * B := Nat.mul_le_mul_right B ha⟩

/-- `[A, B, N] → [M, N]` with `M = A * B`, at `(a * B + b, n)`, is the operand at `(a, b, n)`. -/
theorem merge_leading_at {α : Type} {A B M N : ℕ} (x : (⟨3, ![A, B, N]⟩ : Shape).Idx → α)
    (h : (⟨3, ![A, B, N]⟩ : Shape).ShapeCasts ⟨2, ![M, N]⟩) (hM : M = A * B)
    (a : Fin A) (b : Fin B) (n : Fin N) :
    shapeCast ⟨2, ![M, N]⟩ x h (ix2 (lead hM a b) n) = x (ix3 a b n) := by
  refine shapeCast_apply x h _ _ ?_
  rewrite [Shape.rowMajor_val_three, Shape.rowMajor_val_two]
  rfl

/-- `[M, N] → [A, B, N]` with `M = A * B`, at `(a, b, n)`, is the operand at `(a * B + b, n)`. -/
theorem split_leading_at {α : Type} {A B M N : ℕ} (x : (⟨2, ![M, N]⟩ : Shape).Idx → α)
    (h : (⟨2, ![M, N]⟩ : Shape).ShapeCasts ⟨3, ![A, B, N]⟩) (hM : M = A * B)
    (a : Fin A) (b : Fin B) (n : Fin N) :
    shapeCast ⟨3, ![A, B, N]⟩ x h (ix3 a b n) = x (ix2 (lead hM a b) n) := by
  refine shapeCast_apply x h _ _ ?_
  rewrite [Shape.rowMajor_val_three, Shape.rowMajor_val_two]
  rfl

/-- `[A, B, N] → [A, M]` with `M = B * N` and `0 < N`, at `(a, o)`, is the operand at `(a, o / N, o % N)`. -/
theorem merge_trailing_at {α : Type} {A B N M : ℕ} (x : (⟨3, ![A, B, N]⟩ : Shape).Idx → α)
    (h : (⟨3, ![A, B, N]⟩ : Shape).ShapeCasts ⟨2, ![A, M]⟩) (hM : M = B * N) (hN : 0 < N)
    (a : Fin A) (o : Fin M) :
    shapeCast ⟨2, ![A, M]⟩ x h (ix2 a o)
      = x (ix3 a (⟨o.val / N, by have := o.isLt; subst hM; exact Nat.div_lt_of_lt_mul (lt_of_lt_of_eq this (Nat.mul_comm B N))⟩ : Fin B)
          (⟨o.val % N, Nat.mod_lt _ hN⟩ : Fin N)) := by
  refine shapeCast_apply x h _ _ ?_
  rewrite [Shape.rowMajor_val_three, Shape.rowMajor_val_two]
  show (a.val * B + o.val / N) * N + o.val % N = a.val * M + o.val
  subst hM
  have := Nat.div_add_mod' o.val N
  nlinarith [this]

/-- A reshape to the same shape is the identity. -/
theorem same_at {α : Type} {s : Shape} (x : s.Idx → α) (h : s.ShapeCasts s) (j : s.Idx) :
    shapeCast s x h j = x j :=
  shapeCast_apply x h j j rfl

end Cert.LibReshapeAxes

end
-- ==== Proof.LibHostRowSum.lean ====
/-
  The host's sum along the LAST axis of a matrix, read at coordinates.

  A `stablehlo.reduce` with an add body over axis 1 of an `[M, N]` array, read at row `k`, is the initial value plus
  `Σ_d x (k, d)` over the `N` columns: the exact sum over the reduced axis, with the inserted coordinate named.
  General: nothing here mentions a program; the extents stay variables.
-/
import Idealize.ShloMosaic.PureOps.Ideal.Laws
import Idealize.ShloMosaic.Lib.ValueIdx
import Idealize.ShloMosaic.Lib.Pipeline.Value

noncomputable section

namespace Cert.LibHostRowSum

open Idealize.ShloMosaic Idealize.ShloMosaic.ValueIdx

/-- The host's sum over the column axis of an `[M, N]` array, at row `k`: the initial value plus `Σ_d x (k, d)`. -/
theorem reduce_cols_at {M N : ℕ} {φ : FTy} (x : FVec Ideal ⟨2, ![M, N]⟩ φ) (init : (⟨0, ![]⟩ : Shape).Idx → Ideal φ)
    (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (k : Fin M) :
    Host.reduceAdd x init h' hu (ix1 k) = init ix0 + ∑ d : Fin N, x (ix2 k d) := by
  show Ideal.hostReduceAdd h' x (init (Shape.Idx.first hu)) (ix1 k) = _
  rw [Ideal.hostReduceAdd_single h' h, eq_ix0 (Shape.Idx.first hu)]
  refine congrArg (init ix0 + ·) (Finset.sum_congr rfl fun d _ => congrArg x (funext fun c => Fin.ext ?_))
  rw [Shape.Reduces.lift_val]
  match c with
  | ⟨0, _⟩ => rfl
  | ⟨1, _⟩ => rfl

end Cert.LibHostRowSum

end
-- ==== Proof.DistanceLaw.lean ====
/-
  The scaled squared distance, two ways.

  For a row `x` and a codebook row `c` over a finite index set, and a scale `s`, the reference forms
  `((Σ x² − 2 · Σ x·c) + Σ c²) · s`, while the kernel folds the factor `−2 · s` into the codebook first and forms
  `((Σ x²) · s + Σ x · (−2 · (c · s))) + s · Σ c²`. Over the real numbers these are one number, by distributivity:
  `Σ_d x_d · (−2 · (c_d · s)) = −2 · s · Σ_d x_d · c_d`. On the extended reals distributivity fails at the
  infinities, so the law is stated for entries that are real numbers, which is what finite inputs give.
  Also here: the three float words the two programs spell (0, 2, −2) as the numbers they denote.
-/
import Idealize.ShloMosaic.PureOps.Ideal
import Idealize.ShloMosaic.PureOps.Ideal.Laws

noncomputable section

namespace Cert.DistanceLaw

open Idealize.ShloMosaic

/-- The word of `2.0` denotes the real number 2. -/
theorem ofBits_two : Ideal.ofBits .f32 0x40000000#32 = ((2 : ℝ) : EReal) := by
  simp [Ideal.ofBits, Ideal.ieee, -EReal.coe_mul]; norm_num

/-- The word of `-2.0` denotes the real number −2. -/
theorem ofBits_neg_two : Ideal.ofBits .f32 0xC0000000#32 = ((-2 : ℝ) : EReal) := by
  simp [Ideal.ofBits, Ideal.ieee, -EReal.coe_mul]; norm_num

/-- The coercion of the reals into the extended reals commutes with finite sums. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite sum of products of real entries is a real number. -/
theorem sum_mul_real {ι : Type} [Fintype ι] (x y : ι → EReal) (hx : ∀ d, ∃ r : ℝ, x d = r) (hy : ∀ d, ∃ r : ℝ, y d = r) :
    ∃ r : ℝ, ∑ d, x d * y d = r := by
  choose xr hxr using hx
  choose yr hyr using hy
  refine ⟨∑ d, xr d * yr d, ?_⟩
  rw [coe_sum]
  exact Finset.sum_congr rfl fun d _ => by rw [hxr d, hyr d, EReal.coe_mul]

/-- THE LAW. For real entries, the kernel's arrangement (the factor −2·s folded into the codebook row) and the
    reference's (the three terms added, then scaled by s) are the same number. The leading zeros are the initial
    values the host's sums start from (the kernel's own row sum starts from its neutral accumulator and has none). -/
theorem scaled_distance {ι : Type} [Fintype ι] (x c : ι → EReal) (s : EReal)
    (hx : ∀ d, ∃ r : ℝ, x d = r) (hc : ∀ d, ∃ r : ℝ, c d = r) (hs : ∃ r : ℝ, s = r) :
    ((∑ d, x d * x d) * s + ∑ d, x d * (((-2 : ℝ) : EReal) * (c d * s))) + s * (0 + ∑ d, c d * c d)
      = (((0 + ∑ d, x d * x d) - ((2 : ℝ) : EReal) * ∑ d, x d * c d) + (0 + ∑ d, c d * c d)) * s := by
  choose xr hxr using hx
  choose cr hcr using hc
  obtain ⟨sr, rfl⟩ := hs
  obtain rfl : x = fun d => ((xr d : ℝ) : EReal) := funext hxr
  obtain rfl : c = fun d => ((cr d : ℝ) : EReal) := funext hcr
  simp only [zero_add, ← EReal.coe_mul, ← coe_sum, ← EReal.coe_add, ← EReal.coe_sub]
  refine congrArg _ ?_
  have e : ∑ d, xr d * (-2 * (cr d * sr)) = -2 * sr * ∑ d, xr d * cr d := by
    rw [Finset.mul_sum]; exact Finset.sum_congr rfl fun d _ => by ring
  rw [e]; ring

end Cert.DistanceLaw

end
-- ==== Proof.KernelHost.lean ====
/-
  The four arrays the kernel's region is launched on, as the host lines before it leave them.

  Before the region the host flattens `x` to 65536 rows, folds `−2 · S[k]` into the codebook and transposes it
  (`T[d,k] = −2 · (C[k,d] · S[k])`), lays the scales `S` out as one row, and lays `S[k] · Σ_d C[k,d]²` out as
  one row. Each is read here at coordinates, in terms of the argument arrays.
-/
import proofs.«163286_j69114613728512_2_alg».proof.Proof.Gen.KernelIdeal.Frame
import proofs.«163286_j69114613728512_2_alg».proof.Proof.LibColumnBroadcast
import proofs.«163286_j69114613728512_2_alg».proof.Proof.LibReshapeAxes
import proofs.«163286_j69114613728512_2_alg».proof.Proof.LibHostRowSum
import proofs.«163286_j69114613728512_2_alg».proof.Proof.DistanceLaw
import Idealize.ShloMosaic.Lib.StableHlo.Run
import Idealize.ShloMosaic.Lib.ValueLayout
import Idealize.ShloMosaic.PureOps.Ideal

noncomputable section

namespace Cert.KernelHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The three argument arrays on core `c`, as functions of their indices into the extended reals. -/
abbrev argX : S16x4096x64.Idx → EReal := m ((c : Thread nD τ).loc main_arg0)
abbrev argC : S512x64.Idx → EReal := m ((c : Thread nD τ).loc main_arg1)
abbrev argS : S512.Idx → EReal := m ((c : Thread nD τ).loc main_arg2)

/-- Row `a · 4096 + n` of the flattened input. -/
abbrev row (a : Fin 16) (n : Fin 4096) : Fin 65536 := Cert.LibReshapeAxes.lead (A := 16) (B := 4096) (M := 65536) (by norm_num) a n

/-! ## The flattened input -/

theorem rows_eq : (V m c main_v0 : S65536x64.Idx → EReal)
    = shapeCast S65536x64 (m ((c : Thread nD τ).loc main_arg0)) shapeCasts_S16x4096x64_S65536x64 := by
  show StableHlo.after hostOps0 (fun b => m (c, b)) (Proc.devRef .tc main_v0) = _
  after_results
  rfl

/-- Row `a · 4096 + n` of the flattened input is row `(a, n)` of `x`. -/
theorem rows_at (a : Fin 16) (n : Fin 4096) (d : Fin 64) :
    (V m c main_v0 : S65536x64.Idx → EReal) (ix2 (row a n) d) = argX m c (ix3 a n d) := by
  rw [rows_eq]
  exact Cert.LibReshapeAxes.merge_leading_at _ shapeCasts_S16x4096x64_S65536x64 (by norm_num) a n d

/-! ## The folded, transposed codebook -/

theorem table_eq : (V m c main_v8 : S64x512.Idx → EReal)
    = transpose S64x512 [1, 0]
        (mulf (broadcastInDim S512x64 ![] bcast_S_S512x64 (constant (F := Ideal) S_ .f32 0xC0000000#32))
          (mulf (m ((c : Thread nD τ).loc main_arg1))
            (broadcastInDim S512x64 ![0, 1] bcast_S512x1_S512x64_0_1
              (broadcastInDim S512x1 ![0] bcast_S512_S512x1_0 (m ((c : Thread nD τ).loc main_arg2))))))
        transposes_S512x64_S64x512_1_0 := by
  show StableHlo.after hostOps0 (fun b => m (c, b)) (Proc.devRef .tc main_v8) = _
  after_results

/-- `T[d, k] = −2 · (C[k, d] · S[k])`. -/
theorem table_at (d : Fin 64) (k : Fin 512) :
    (V m c main_v8 : S64x512.Idx → EReal) (ix2 d k)
      = ((-2 : ℝ) : EReal) * (argC m c (ix2 k d) * argS m c (ix1 k)) := by
  rw [table_eq]
  refine (transpose_ix2_apply _ transposes_S512x64_S64x512_1_0 d k).trans ?_
  exact congrArg₂ (· * ·)
    ((Cert.LibColumnBroadcast.scalar_spread_apply _ bcast_S_S512x64 (ix2 k d)).trans Cert.DistanceLaw.ofBits_neg_two)
    (congrArg₂ (· * ·) rfl
      ((Cert.LibColumnBroadcast.column_spread_apply _ bcast_S512x1_S512x64_0_1 k d).trans
        (Cert.LibColumnBroadcast.vector_as_column_apply _ bcast_S512_S512x1_0 k (0 : Fin 1))))

/-! ## The scales as a row -/

theorem scale_row_eq : (V m c main_v9 : S1x512.Idx → EReal)
    = shapeCast S1x512 (m ((c : Thread nD τ).loc main_arg2)) shapeCasts_S512_S1x512 := by
  show StableHlo.after hostOps0 (fun b => m (c, b)) (Proc.devRef .tc main_v9) = _
  after_results
  rfl

theorem scale_row_at (k : Fin 512) :
    (V m c main_v9 : S1x512.Idx → EReal) (ix2 (0 : Fin 1) k) = argS m c (ix1 k) := by
  rw [scale_row_eq]
  exact shapeCast_a_1a_apply _ shapeCasts_S512_S1x512 (0 : Fin 1) k

/-! ## The scaled squared norms of the codebook rows, as a row -/

theorem norm_row_eq : (V m c main_v11 : S1x512.Idx → EReal)
    = shapeCast S1x512
        (mulf (m ((c : Thread nD τ).loc main_arg2))
          (Host.reduceAdd (F := Ideal) (mulf (m ((c : Thread nD τ).loc main_arg1)) (m ((c : Thread nD τ).loc main_arg1)))
            (constant (F := Ideal) S_ .f32 0x00000000#32) reducesTo_S512x64_S512_d1 h_S_))
        shapeCasts_S512_S1x512 := by
  show StableHlo.after hostOps0 (fun b => m (c, b)) (Proc.devRef .tc main_v11) = _
  after_results
  rfl

/-- Entry `k` of that row is `S[k] · (0 + Σ_d C[k,d]²)`. -/
theorem norm_row_at (k : Fin 512) :
    (V m c main_v11 : S1x512.Idx → EReal) (ix2 (0 : Fin 1) k)
      = argS m c (ix1 k) * (0 + ∑ d : Fin 64, argC m c (ix2 k d) * argC m c (ix2 k d)) := by
  rw [norm_row_eq]
  refine (shapeCast_a_1a_apply _ shapeCasts_S512_S1x512 (0 : Fin 1) k).trans ?_
  refine congrArg₂ (· * ·) rfl ?_
  refine (Cert.LibHostRowSum.reduce_cols_at _ _ reducesTo_S512x64_S512_d1 (by decide) h_S_ k).trans ?_
  exact congrArg₂ (· + ·) Ideal.ofBits_zero_f32 rfl

end Cert.KernelHost

end
-- ==== Proof.ReferenceAt.lean ====
/-
  The reference's result at one index.

  At `(b, n, k)` the reference's last stage is
  `((Σ_d x[b,n,d]² − 2 · Σ_d x[b,n,d] · C[k,d]) + Σ_d C[k,d]²) · S[k]`, each sum started from the zero word:
  the squared norm of the row is summed over the last axis and spread over `k`, the inner products come from the
  contraction of the last axes, the squared norms of the codebook rows and the scales are spread over `(b, n)`.
  Each stage is read at an index by its generated lemma; what is added here is that the composed index maps are the
  coordinates one expects.
-/
import proofs.«163286_j69114613728512_2_alg».proof.Proof.Gen.ReferenceIdeal.Read
import proofs.«163286_j69114613728512_2_alg».proof.Proof.DistanceLaw

noncomputable section

namespace Cert.ReferenceAt

open Cert.ReferenceIdeal Cert.ReferenceIdeal.Read Idealize.ShloMosaic Idealize.ShloMosaic.ValueIdx

/-- The reference's result at `(b, n, k)`, as sums over the feature axis. -/
theorem result_at (X : (⟨S16x4096x64, .f32⟩ : BufTy).Contents (Elt Ideal)) (C : (⟨S512x64, .f32⟩ : BufTy).Contents (Elt Ideal))
    (S : (⟨S512, .f32⟩ : BufTy).Contents (Elt Ideal)) (b : Fin 16) (n : Fin 4096) (k : Fin 512) :
    val_main_v15 (F := Ideal) X C S (ix3 b n k)
      = (((0 + ∑ d : Fin 64, X (ix3 b n d) * X (ix3 b n d)) - ((2 : ℝ) : EReal) * ∑ d : Fin 64, X (ix3 b n d) * C (ix2 k d))
          + (0 + ∑ d : Fin 64, C (ix2 k d) * C (ix2 k d))) * S (ix1 k) := by
  -- the row of x behind the squared norm, through the two broadcasts
  have e1 : ∀ d : Fin 64, idx_main_v1 (idx_main_v2 (idx_main_v8 (ix3 b n k))) d = ix3 b n d := fun d =>
    funext fun a => Fin.ext (by match a with | ⟨0, _⟩ => rfl | ⟨1, _⟩ => rfl | ⟨2, _⟩ => rfl)
  -- the contraction's two operands
  have e2 : ∀ d : Fin 64, lidx_main_v5 (ix3 b n k) d = ix3 b n d := fun d =>
    funext fun a => Fin.ext (by match a with | ⟨0, _⟩ => rfl | ⟨1, _⟩ => rfl | ⟨2, _⟩ => rfl)
  have e3 : ∀ d : Fin 64, ridx_main_v5 (ix3 b n k) d = ix2 k d := fun d =>
    funext fun a => Fin.ext (by match a with | ⟨0, _⟩ => rfl | ⟨1, _⟩ => rfl)
  -- the codebook row behind its squared norm, through the two broadcasts
  have e4 : ∀ d : Fin 64, idx_main_v4 (idx_main_v10 (idx_main_v11 (ix3 b n k))) d = ix2 k d := fun d =>
    funext fun a => Fin.ext (by match a with | ⟨0, _⟩ => rfl | ⟨1, _⟩ => rfl)
  -- the scale, through the two broadcasts
  have e5 : idx_main_v13 (idx_main_v14 (ix3 b n k)) = ix1 k :=
    funext fun a => Fin.ext (by match a with | ⟨0, _⟩ => rfl)
  rw [val_main_v15_apply, val_main_v12_apply, val_main_v9_apply, val_main_v8_apply, val_main_v2_apply, val_main_v1_apply,
    val_main_v7_apply, val_main_v6_apply, val_main_v5_apply, val_main_v11_apply, val_main_v10_apply, val_main_v4_apply,
    val_main_v14_apply, val_main_v13_apply]
  simp only [val_main_v0_apply, val_main_v3_apply, val_main_cst_apply, val_main_cst_0_apply, val_main_cst_1_apply,
    Ideal.mulf_def, Ideal.addf_def, Ideal.subf_def, Ideal.ofBits_def, Ideal.ofBits_zero_f32, Cert.DistanceLaw.ofBits_two,
    e1, e2, e3, e4, e5]

end Cert.ReferenceAt

end
-- ==== Proof.Bridge.lean ====
/-
  The two programs compute one function.

  At `(b, n, k)` the kernel's result is entry `(4096·b + n, k)` of its output array:
  `((Σ_d x[b,n,d]²) · S[k] + Σ_d x[b,n,d] · (−2 · (C[k,d] · S[k]))) + S[k] · Σ_d C[k,d]²`, once the four launched
  arrays are read in terms of the arguments; the reference's is
  `((Σ_d x[b,n,d]² − 2 · Σ_d x[b,n,d] · C[k,d]) + Σ_d C[k,d]²) · S[k]`. For real entries these agree, by the law of
  the scaled distance.
-/
import proofs.«163286_j69114613728512_2_alg».proof.Proof.KernelRun
import proofs.«163286_j69114613728512_2_alg».proof.Proof.KernelHost
import proofs.«163286_j69114613728512_2_alg».proof.Proof.ReferenceAt

noncomputable section

namespace Cert.Bridge

open Cert.KernelIdeal Cert.KernelIdeal.Gen Idealize.ShloMosaic Idealize.ShloMosaic.TcCoe Idealize.SL.Sem
open Idealize.ShloMosaic.ValueIdx
open Cert.KernelHost (argX argC argS row)
open Cert.KernelArray (whole entry)

/-- Entry `(r, q)` of the whole output array, at an index written by coordinates. -/
theorem whole_ix2 (X0 : S65536x64.Idx → EReal) (T : S64x512.Idx → EReal) (sv sc : S1x512.Idx → EReal)
    (r : Fin 65536) (q : Fin 512) : whole X0 T sv sc (ix2 r q) = entry X0 T sv sc r q := rfl

/-- THE TWO SIDES, over any arrays: if the four launched arrays read, where entry `(4096·b + n, k)` reads them, as the
    host lines before the region make them from real-valued `X`, `C`, `S`, then that entry is the reference's last
    stage at `(b, n, k)`. -/
theorem entry_eq_reference (X0 : S65536x64.Idx → EReal) (T : S64x512.Idx → EReal) (sv sc : S1x512.Idx → EReal)
    (X : S16x4096x64.Idx → EReal) (C : S512x64.Idx → EReal) (S : S512.Idx → EReal) (b : Fin 16) (n : Fin 4096) (k : Fin 512)
    (h0 : ∀ d : Fin 64, X0 (ix2 (row b n) d) = X (ix3 b n d))
    (h1 : ∀ d : Fin 64, T (ix2 d k) = ((-2 : ℝ) : EReal) * (C (ix2 k d) * S (ix1 k)))
    (h2 : sv (ix2 (0 : Fin 1) k) = S (ix1 k))
    (h3 : sc (ix2 (0 : Fin 1) k) = S (ix1 k) * (0 + ∑ d : Fin 64, C (ix2 k d) * C (ix2 k d)))
    (hX : ∀ i, ∃ r : ℝ, X i = r) (hC : ∀ i, ∃ r : ℝ, C i = r) (hS : ∀ i, ∃ r : ℝ, S i = r) :
    entry X0 T sv sc (row b n) k = Cert.ReferenceIdeal.Read.val_main_v15 (F := Ideal) X C S (ix3 b n k) := by
  refine Eq.trans ?_ (Cert.ReferenceAt.result_at X C S b n k).symm
  unfold entry
  simp only [h0, h1, h2, h3]
  exact Cert.DistanceLaw.scaled_distance (fun d => X (ix3 b n d)) (fun d => C (ix2 k d)) (S (ix1 k))
    (fun _ => hX _) (fun _ => hC _) (hS _)

variable (m : (ℓ : Loc nD τ sig) → Buf (Elt Ideal) ℓ) (c : Dev nD)

/-- For real inputs, the kernel's result is the reference's last stage of the same arguments. -/
theorem kernel_eq_reference (hX : ∀ i, ∃ r : ℝ, argX m c i = r) (hC : ∀ i, ∃ r : ℝ, argC m c i = r)
    (hS : ∀ i, ∃ r : ℝ, argS m c i = r) :
    Cert.KernelRun.result m c = Cert.ReferenceIdeal.Read.val_main_v15 (F := Ideal) (argX m c) (argC m c) (argS m c) := by
  funext i
  obtain ⟨b, n, k, rfl⟩ : ∃ (b : Fin 16) (n : Fin 4096) (k : Fin 512), i = ix3 b n k := ⟨i 0, i 1, i 2, eq_ix3 i⟩
  exact ((Cert.LibReshapeAxes.split_leading_at (whole (V m c main_v0) (V m c main_v8) (V m c main_v9) (V m c main_v11))
      shapeCasts_S65536x512_S16x4096x512 (by norm_num) b n k).trans
      (whole_ix2 (V m c main_v0) (V m c main_v8) (V m c main_v9) (V m c main_v11) (row b n) k)).trans
    (entry_eq_reference (V m c main_v0) (V m c main_v8) (V m c main_v9) (V m c main_v11) (argX m c) (argC m c) (argS m c) b n k
      (Cert.KernelHost.rows_at m c b n) (fun d => Cert.KernelHost.table_at m c d k) (Cert.KernelHost.scale_row_at m c k)
      (Cert.KernelHost.norm_row_at m c k) hX hC hS)

end Cert.Bridge

end
-- ==== Proof.lean ====
/-
  A scaled squared distance to a codebook, computed two ways, is one function of finite inputs.

  For `x : [16, 4096, 64]`, a codebook `C : [512, 64]` and scales `S : [512]`, both programs return
  `out[b, n, k] = S[k] · Σ_d (x[b,n,d] − C[k,d])²` through the expansion `‖x‖² − 2 x·c + ‖c‖²`.
  The reference adds the three terms and then multiplies by `S[k]`. The kernel first folds `−2 · S[k]` into the
  transposed codebook and `S[k]` into the codebook's squared norms on the host, then, over 16 blocks of 4096 rows,
  forms `(‖x‖² · S[k] + x · T[·,k]) + S[k]·‖c_k‖²` with one matrix product per block, and regroups the rows.

  On the extended reals the two arrangements differ only by distributivity, which needs the entries to be real
  numbers: that is exactly what the precondition (all inputs finite) gives (`Proof/FiniteInputs.lean`). The law
  itself is `Proof/DistanceLaw.lean`; the reference read at an index is `Proof/ReferenceAt.lean`; the kernel's body at
  an index, the arrays it is launched on, its output array and its run are `Proof/KernelBody.lean`,
  `Proof/KernelHost.lean`, `Proof/KernelArray.lean`, `Proof/KernelRun.lean`; `Proof/Bridge.lean` joins the two sides.
  The three frames are the programs' runs with the results dropped; nothing was rewritten between the kernel and its
  idealization, so that conjunct is trivial.
-/
import proofs.«163286_j69114613728512_2_alg».proof.Defs
import proofs.«163286_j69114613728512_2_alg».proof.Proof.Gen.Kernel
import proofs.«163286_j69114613728512_2_alg».proof.Proof.Gen.Kernel.Skeleton
import proofs.«163286_j69114613728512_2_alg».proof.Proof.Gen.Kernel.Launch
import proofs.«163286_j69114613728512_2_alg».proof.Proof.Gen.Kernel.Points
import proofs.«163286_j69114613728512_2_alg».proof.Proof.Gen.Kernel.Frame
import proofs.«163286_j69114613728512_2_alg».proof.Proof.Gen.KernelIdeal
import proofs.«163286_j69114613728512_2_alg».proof.Proof.Gen.KernelIdeal.Skeleton
import proofs.«163286_j69114613728512_2_alg».proof.Proof.Gen.KernelIdeal.Launch
import proofs.«163286_j69114613728512_2_alg».proof.Proof.Gen.KernelIdeal.Points
import proofs.«163286_j69114613728512_2_alg».proof.Proof.Gen.KernelIdeal.Frame
import proofs.«163286_j69114613728512_2_alg».proof.Proof.Gen.ReferenceIdeal
import proofs.«163286_j69114613728512_2_alg».proof.Proof.Gen.ReferenceIdeal.Run
import proofs.«163286_j69114613728512_2_alg».proof.Proof.Gen.ReferenceIdeal.Read
import proofs.«163286_j69114613728512_2_alg».proof.Proof.Gen.Pre_finite_inputs
import proofs.«163286_j69114613728512_2_alg».proof.Proof.FiniteInputs
import proofs.«163286_j69114613728512_2_alg».proof.Proof.Bridge
import Idealize.ShloMosaic.Adequacy
import Idealize.ShloMosaic.Init

noncomputable section

namespace Cert.Proof

open Idealize.ShloMosaic Idealize.ShloMosaic.TcCoe Idealize.SL.Sem
open Cert.KernelHost (argX argC argS)

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on finite arguments both programs end at the reference's last stage of those arguments:
    the reference by its run, the kernel by its run and the law of the scaled distance. -/
theorem algebraic : Cert.algebraic_KernelIdeal_ReferenceIdeal := by
  intro m ρ m' ρ' hpre hagree
  refine ⟨fun c => Cert.ReferenceIdeal.Read.val_main_v15 (F := Ideal) (argX m c) (argC m c) (argS m c), ?_, ?_⟩
  · have hfin := fun c => Cert.FiniteInputs.reals_of_pre _ _ _ (hpre c)
    exact (θ_run Cert.KernelIdeal.defs _ _).mono
      (fun r h c => ⟨(h c).1.trans (Cert.Bridge.kernel_eq_reference m c (hfin c).1 (hfin c).2.1 (hfin c).2.2), (h c).2⟩)
      (Cert.KernelRun.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v15_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
